-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPieces.lean ====
/-
  What one grid point leaves behind, as values of the blocks it loads.

  The body has two cases. At the first grid point it stores the dense layer of the three resident inputs into the
  carried buffer, whole, and then multiplies its slab of the adjacency with what it has just stored; at every later
  point it stores nothing into the carried buffer and multiplies its slab with what the buffer already holds. Each
  store covers its buffer with one whole-shape rectangle at zero offsets, so what a buffer holds afterwards is the
  stored value itself, and a whole-shape load reads a buffer's contents unchanged.
-/
import proofs.«179110_g35424890258178_cont_8to1_b_1443_18_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a two-axis rectangle. -/
theorem hz : (![0, 0] : Fin 2 → Nat) = fun _ => 0 := funext fun a => by fin_cases a <;> rfl

/-- FIRST POINT, the carried buffer: it ends holding the dense layer of the three resident blocks. -/
theorem carried_first (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S10000x128 .f32) (x1 : Vec F S128x128 .f32) (x2 : Vec F S1x128 .f32) (x3 : Vec F S400x10000 .f32) :
    sout0_A_0 c i a1 h1 a2 h2 a3 h3 a4 h4 a5 h5 a6 h6 hc x0 x1 x2 x3 = k0_pay1 x0 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread,
    View.ld_unit_zero (S := S10000x128) hz, View.ld_unit_zero (S := S128x128) hz, View.ld_unit_zero (S := S1x128) hz]

/-- FIRST POINT, the output block: the slab times the dense layer just stored (the load of the carried buffer reads
    back the one store that covers it). -/
theorem out_first (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S10000x128 .f32) (x1 : Vec F S128x128 .f32) (x2 : Vec F S1x128 .f32) (x3 : Vec F S400x10000 .f32) :
    out0_A_4 c i a1 h1 a2 h2 a3 h3 a4 h4 a5 h5 a6 h6 hc x0 x1 x2 x3 = k0_pay2 x3 (k0_pay1 x0 x1 x2) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz,
    View.ld_unit_zero (S := S128x128) hz, View.ld_unit_zero (S := S1x128) hz]
  rw [View.readCov_unit_zero (S := S10000x128) _ hz]

/-- LATER POINTS, the output block: the slab times what the carried buffer holds. -/
theorem out_later (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : ¬cond0_0 i)
    (x0 : Vec F S10000x128 .f32) (x1 : Vec F S128x128 .f32) (x2 : Vec F S1x128 .f32) (x3 : Vec F S400x10000 .f32) (xs : Vec F S10000x128 .bf16) :
    out0_B_4 c i a1 h1 a2 h2 a3 h3 a4 h4 a5 h5 a6 h6 hc x0 x1 x2 x3 xs = k0_pay2 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero hz]
  simp only [View.readAt_eq_ld, h4.read_unread, h6.read_unread,
    View.ld_unit_zero (S := S400x10000) hz, View.ld_unit_zero (S := S10000x128) hz]

/-- LATER POINTS, the carried buffer: untouched. -/
theorem carried_later (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : ¬cond0_0 i)
    (x0 : Vec F S10000x128 .f32) (x1 : Vec F S128x128 .f32) (x2 : Vec F S1x128 .f32) (x3 : Vec F S400x10000 .f32) (xs : Vec F S10000x128 .bf16) :
    sout0_B_0 c i a1 h1 a2 h2 a3 h3 a4 h4 a5 h5 a6 h6 hc x0 x1 x2 x3 xs = xs := rfl

end Cert.KernelIdeal.Pieces

end
-- ==== Proof.KernelPay.lean ====
/-
  The body's two stored values read at an index, over the extended reals.

  The value stored into the carried buffer is a matrix product into a zero accumulator, contracting the second axis
  of both operands (x against W, both read along their rows), plus the one-row bias block broadcast down the rows; the
  changes of float format around it are the identity on the extended reals. At (k, c) it is
  `(∑ d, x (k, d) · W (c, d)) + bias (0, c)`.

  The value stored into the output block is a matrix product into a zero accumulator of the adjacency slab with the
  carried buffer: at (p, c) it is `∑ k, slab (p, k) · carried (k, c)`.
-/
import proofs.«179110_g35424890258178_cont_8to1_b_1443_18_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The dense layer's product: both operands contracted along their second axis -/

theorem dense_lhs0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem dense_lhs1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem dense_rhs0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem dense_rhs1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The dense layer's matrix product at (k, c): row k of the left operand against row c of the right one. -/
theorem dense_matmul_apply (l : FVec Ideal S10000x128 .bf16) (r : FVec Ideal S128x128 .bf16) (k : Fin 10000) (c : Fin 128) :
    matmul dot_S10000x128_S128x128_S10000x128_1_1_0_0_n_n none l r (constant (F := Ideal) S10000x128 .f32 0x00000000#32) (ix2 k c)
      = ∑ d : Fin 128, l (ix2 k d) * r (ix2 c d) := by
  show FloatOps.matmul dot_S10000x128_S128x128_S10000x128_1_1_0_0_n_n none l r (constant (F := Ideal) S10000x128 .f32 0x00000000#32) (ix2 k c) = _
  rw [Ideal.matmul_constant_zero_apply, ← Equiv.sum_comp (contrEquiv1 dot_S10000x128_S128x128_S10000x128_1_1_0_0_n_n 128 rfl rfl).symm]
  refine Finset.sum_congr rfl fun d _ => ?_
  have hk := contrEquiv1_symm_val dot_S10000x128_S128x128_S10000x128_1_1_0_0_n_n 128 rfl rfl d
  have el : dot_S10000x128_S128x128_S10000x128_1_1_0_0_n_n.lhsIdx (ix2 k c) ((contrEquiv1 dot_S10000x128_S128x128_S10000x128_1_1_0_0_n_n 128 rfl rfl).symm d) = ix2 k d := funext fun a => Fin.ext (by
    match a with
    | ⟨0, _⟩ => exact dense_lhs0 _ _
    | ⟨1, _⟩ => exact (dense_lhs1 _ _).trans hk)
  have er : dot_S10000x128_S128x128_S10000x128_1_1_0_0_n_n.rhsIdx (ix2 k c) ((contrEquiv1 dot_S10000x128_S128x128_S10000x128_1_1_0_0_n_n 128 rfl rfl).symm d) = ix2 c d := funext fun a => Fin.ext (by
    match a with
    | ⟨0, _⟩ => exact dense_rhs0 _ _
    | ⟨1, _⟩ => exact (dense_rhs1 _ _).trans hk)
  rw [el, er]

/-- THE CARRIED VALUE at (k, c): the dense layer's entry of the three loaded blocks. -/
theorem pay1_apply (v7 : Vec Ideal S10000x128 .f32) (v9 : Vec Ideal S128x128 .f32) (v12 : Vec Ideal S1x128 .f32)
    (k : Fin 10000) (c : Fin 128) :
    k0_pay1 (F := Ideal) v7 v9 v12 (ix2 k c) = (∑ d : Fin 128, v7 (ix2 k d) * v9 (ix2 c d)) + v12 (ix2 (0 : Fin 1) c) := by
  have e : k0_pay1 (F := Ideal) v7 v9 v12
      = shapeCast S10000x128 (addf (matmul dot_S10000x128_S128x128_S10000x128_1_1_0_0_n_n none (v7 : FVec Ideal S10000x128 .bf16) (v9 : FVec Ideal S128x128 .bf16) (constant (F := Ideal) S10000x128 .f32 0x00000000#32))
          (broadcastTo S10000x128 (shapeCast S1x128 (v12 : FVec Ideal S1x128 .f32) shapeCasts_S1x128_S1x128) broadcasts_S1x128_S10000x128))
        shapeCasts_S10000x128_S10000x128 := rfl
  rw [e, shapeCast_self, addf_apply, shapeCast_self, dense_matmul_apply, broadcastTo_1b_ab_apply]

/-! ## The propagation's product: the slab's second axis against the carried buffer's first -/

theorem prop_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem prop_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem prop_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem prop_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- THE OUTPUT BLOCK'S VALUE at (p, c): row p of the slab against column c of the carried buffer. -/
theorem pay2_apply (v3 : Vec Ideal S400x10000 .f32) (v4 : Vec Ideal S10000x128 .bf16) (p : Fin 400) (c : Fin 128) :
    k0_pay2 (F := Ideal) v3 v4 (ix2 p c) = ∑ k : Fin 10000, v3 (ix2 p k) * v4 (ix2 k c) := by
  show FloatOps.matmul dot_S400x10000_S10000x128_S400x128_1_0_0_1_n_n none (v3 : FVec Ideal S400x10000 .f32) (v4 : FVec Ideal S10000x128 .bf16) (constant (F := Ideal) S400x128 .f32 0x00000000#32) (ix2 p c) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p c) ((contrEquiv1 dot_S400x10000_S10000x128_S400x128_1_0_0_1_n_n 10000 rfl rfl).symm k) = ix2 p k := funext fun a => Fin.ext (by
    match a with
    | ⟨0, _⟩ => exact prop_lhs0 _ _
    | ⟨1, _⟩ => exact (prop_lhs1 _ _).trans hk)
  have er : dot_S400x10000_S10000x128_S400x128_1_0_0_1_n_n.rhsIdx (ix2 p c) ((contrEquiv1 dot_S400x10000_S10000x128_S400x128_1_0_0_1_n_n 10000 rfl rfl).symm k) = ix2 k c := funext fun a => Fin.ext (by
    match a with
    | ⟨0, _⟩ => exact (prop_rhs0 _ _).trans hk
    | ⟨1, _⟩ => exact prop_rhs1 _ _)
  rw [el, er]

end Cert.KernelIdeal.Pay

end
-- ==== Proof.KernelBlocks.lean ====
/-
  The input blocks a grid point sees, read at an index of the arrays the program was launched with.

  The three resident inputs are fetched whole at block index (0, 0): the block of the features is the feature array,
  the block of the weights is the weight array, and the one-row bias block is the bias vector cast to one row (a host
  reshape before the call). The adjacency is cut into 25 slabs of 400 rows: entry (p, k) of the slab at point t is
  entry (400·t + p, k) of the adjacency, and the output block at point t sits at the same rows.
-/
import proofs.«179110_g35424890258178_cont_8to1_b_1443_18_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block index of each window at each grid point, decided over the 25 points: the resident inputs stay at
    (0, 0); the adjacency slab and the output block are at (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A grid point is below 25. -/
theorem point_lt (t : Fin cfg0.N) : t.val < 25 := lt_of_lt_of_eq t.isLt (show cfg0.N = 25 from N_0)

/-- Row `p` of the slab at point `t`, as a row of the adjacency. -/
def slabRow (t : Fin cfg0.N) (p : Fin 400) : Fin 10000 :=
  ⟨400 * t.val + p.val, by have := point_lt t; have := p.isLt; omega⟩

/-- The features' block is the feature array. -/
theorem features_block (c : Dev nD) (t : Fin cfg0.N) (k : Fin 10000) (d : Fin 128) :
    (iblk m c 0 t : Vec Ideal S10000x128 .f32) (ix2 k d) = m ((c : Thread nD τ).loc main_arg0) (ix2 k d) := by
  obtain ⟨e0, e1, -⟩ := idx_facts t
  show V m c main_arg0 (((cfg0.win 0).blk t).view.emb (ix2 k d)) = _
  rw [V_main_arg0]
  refine congrArg _ (funext fun a => Fin.ext ?_)
  match a with
  | ⟨0, _⟩ => show win0_0.index t (0 : Fin 2) * 10000 + 1 * k.val = k.val; rw [e0]; omega
  | ⟨1, _⟩ => show win0_0.index t (1 : Fin 2) * 128 + 1 * d.val = d.val; rw [e1]; omega

/-- The weights' block is the weight array. -/
theorem weights_block (c : Dev nD) (t : Fin cfg0.N) (q : Fin 128) (d : Fin 128) :
    (iblk m c 1 t : Vec Ideal S128x128 .f32) (ix2 q d) = m ((c : Thread nD τ).loc main_arg2) (ix2 q d) := by
  obtain ⟨-, -, e0, e1, -⟩ := idx_facts t
  show V m c main_arg2 (((cfg0.win 1).blk t).view.emb (ix2 q d)) = _
  rw [V_main_arg2]
  refine congrArg _ (funext fun a => Fin.ext ?_)
  match a with
  | ⟨0, _⟩ => show win0_1.index t (0 : Fin 2) * 128 + 1 * q.val = q.val; rw [e0]; omega
  | ⟨1, _⟩ => show win0_1.index t (1 : Fin 2) * 128 + 1 * d.val = d.val; rw [e1]; omega

/-- The one-row array the call's third operand names is the bias vector cast to one row. -/
theorem bias_row (c : Dev nD) :
    (V m c main_call0_v0 : S1x128.Idx → EReal)
      = shapeCast S1x128 (m ((c : Thread nD τ).loc main_arg3) : S128.Idx → EReal) shapeCasts_S128_S1x128 := by
  dsimp only [Gen.V, Gen.hostOps0]; after_results; rfl

/-- The bias block at (0, q) is the bias at q. -/
theorem bias_block (c : Dev nD) (t : Fin cfg0.N) (q : Fin 128) :
    (iblk m c 2 t : Vec Ideal S1x128 .f32) (ix2 (0 : Fin 1) q) = m ((c : Thread nD τ).loc main_arg3) (ix1 q) := by
  obtain ⟨-, -, -, -, e0, e1, -⟩ := idx_facts t
  show V m c main_call0_v0 (((cfg0.win 2).blk t).view.emb (ix2 (0 : Fin 1) q)) = _
  have ei : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e0]
    | ⟨1, _⟩ => show win0_2.index t (1 : Fin 2) * 128 + 1 * q.val = q.val; rw [e1]; omega)
  rw [ei, bias_row, shapeCast_a_1a_apply]

/-- The adjacency's slab at point `t`, entry (p, k), is the adjacency at (400·t + p, k). -/
theorem slab_block (c : Dev nD) (t : Fin cfg0.N) (p : Fin 400) (k : Fin 10000) :
    (iblk m c 3 t : Vec Ideal S400x10000 .f32) (ix2 p k) = m ((c : Thread nD τ).loc main_arg1) (ix2 (slabRow t p) k) := by
  obtain ⟨-, -, -, -, -, -, e0, e1, -⟩ := idx_facts t
  show V m c main_arg1 (((cfg0.win 3).blk t).view.emb (ix2 p k)) = _
  rw [V_main_arg1]
  refine congrArg _ (funext fun a => Fin.ext ?_)
  match a with
  | ⟨0, _⟩ => show win0_3.index t (0 : Fin 2) * 400 + 1 * p.val = 400 * t.val + p.val; rw [e0]; omega
  | ⟨1, _⟩ => show win0_3.index t (1 : Fin 2) * 10000 + 1 * k.val = k.val; rw [e1]; omega

/-- The output block at point `t`, entry (p, q), sits in the result array at (400·t + p, q). -/
theorem out_block_emb (t : Fin cfg0.N) (p : Fin 400) (q : Fin 128) :
    ((cfg0.win 4).blk t).view.emb (ix2 p q) = ix2 (slabRow t p) q := by
  obtain ⟨-, -, -, -, -, -, -, -, e0, e1⟩ := idx_facts t
  refine funext fun a => Fin.ext ?_
  match a with
  | ⟨0, _⟩ => show win0_4.index t (0 : Fin 2) * 400 + 1 * p.val = 400 * t.val + p.val; rw [e0]; omega
  | ⟨1, _⟩ => show win0_4.index t (1 : Fin 2) * 128 + 1 * q.val = q.val; rw [e1]; omega

end Cert.KernelIdeal.Blocks

end
-- ==== Proof.Spec.lean ====
/-
  The function both programs compute, over the extended reals, index by index.

  A dense layer followed by one dense propagation step: for node features `x` (10000 × 128), a weight matrix `W`
  (128 × 128, stored output-major), a bias `b` (128) and a dense adjacency `A` (10000 × 10000),

      hidden k c = (∑ d, x k d · W c d) + b c            (x · Wᵀ + b)
      result r c = ∑ k, A r k · hidden k c               (A · hidden)

  The temperature the propagation is divided by is the constant 1, and a quotient by 1 is the dividend on every
  extended real (`div_one`), so it does not appear.
-/
import Idealize.ShloMosaic.PureOps.Ideal
import Idealize.ShloMosaic.PureOps.IdealRules
import Idealize.ShloMosaic.Lib.ValueIdx

noncomputable section

namespace Cert.GraphConv

open Idealize.ShloMosaic Idealize.ShloMosaic.ValueIdx

/-- One entry of the dense layer: row `k` of `x` against row `c` of `W`, plus the bias at `c`. -/
def hiddenAt (x : (⟨2, ![10000, 128]⟩ : Shape).Idx → EReal) (W : (⟨2, ![128, 128]⟩ : Shape).Idx → EReal)
    (b : (⟨1, ![128]⟩ : Shape).Idx → EReal) (k : Fin 10000) (c : Fin 128) : EReal :=
  (∑ d : Fin 128, x (ix2 k d) * W (ix2 c d)) + b (ix1 c)

/-- The dense layer `x · Wᵀ + b` as an array. -/
def hidden (x : (⟨2, ![10000, 128]⟩ : Shape).Idx → EReal) (W : (⟨2, ![128, 128]⟩ : Shape).Idx → EReal)
    (b : (⟨1, ![128]⟩ : Shape).Idx → EReal) : (⟨2, ![10000, 128]⟩ : Shape).Idx → EReal :=
  fun j => hiddenAt x W b (j 0) (j 1)

theorem hidden_ix2 (x : (⟨2, ![10000, 128]⟩ : Shape).Idx → EReal) (W : (⟨2, ![128, 128]⟩ : Shape).Idx → EReal)
    (b : (⟨1, ![128]⟩ : Shape).Idx → EReal) (k : Fin 10000) (c : Fin 128) :
    hidden x W b (ix2 k c) = hiddenAt x W b k c := rfl

/-- One entry of the propagation: row `r` of `A` against column `c` of `h`. -/
def propagateAt (A : (⟨2, ![10000, 10000]⟩ : Shape).Idx → EReal) (h : (⟨2, ![10000, 128]⟩ : Shape).Idx → EReal)
    (r : Fin 10000) (c : Fin 128) : EReal :=
  ∑ k : Fin 10000, A (ix2 r k) * h (ix2 k c)

/-- The result array: `A · (x · Wᵀ + b)`. -/
def result (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun j => propagateAt A (hidden x W b) (j 0) (j 1)

theorem result_ix2 (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) (r : Fin 10000) (c : Fin 128) :
    result x A W b (ix2 r c) = ∑ k : Fin 10000, A (ix2 r k) * hiddenAt x W b k c := rfl

/-- The f32 pattern of 1.0 denotes the extended real 1. -/
theorem one_f32 : Ideal.ofBits .f32 0x3F800000#32 = 1 := IdealRules.sign_bit.ideal_onePat .f32

/-- A quotient by 1 is the dividend, at the infinities too. -/
theorem div_one (x : EReal) : Ideal.div x 1 = x := by
  rw [← EReal.coe_one, Ideal.div_coe one_ne_zero, one_div, inv_one, EReal.coe_one, mul_one]

end Cert.GraphConv

end
-- ==== Proof.KernelCarried.lean ====
/-
  What the carried buffer and the output block hold after each grid point.

  The carried buffer is written once, at the first point, with the dense layer of the resident inputs; every later
  point leaves it alone. So after EVERY point it holds `x · Wᵀ + b` of the launch arrays (induction on the point),
  and the output block after point t is the slab at t times that array: entry (p, q) is
  `∑ k, A (400·t + p, k) · hidden (k, q)`.
-/
import proofs.«179110_g35424890258178_cont_8to1_b_1443_18_alg».proof.Proof.Gen.KernelIdeal.Value
import proofs.«179110_g35424890258178_cont_8to1_b_1443_18_alg».proof.Proof.KernelPieces
import proofs.«179110_g35424890258178_cont_8to1_b_1443_18_alg».proof.Proof.KernelPay
import proofs.«179110_g35424890258178_cont_8to1_b_1443_18_alg».proof.Proof.KernelBlocks
import proofs.«179110_g35424890258178_cont_8to1_b_1443_18_alg».proof.Proof.Spec

noncomputable section

namespace Cert.KernelIdeal.Carried

open Cert.KernelIdeal Cert.KernelIdeal.Gen Idealize.ShloMosaic Idealize.ShloMosaic.TcCoe Idealize.SL.Sem
open Idealize.ShloMosaic.ValueIdx Cert.GraphConv Cert.KernelIdeal.Blocks

variable (m : (ℓ : Loc nD τ sig) → Buf (Elt Ideal) ℓ)

/-- The launch arrays on core `c`: features, adjacency, weights, bias. -/
abbrev argX (c : Dev nD) : S10000x128.Idx → EReal := m ((c : Thread nD τ).loc main_arg0)
abbrev argA (c : Dev nD) : S10000x10000.Idx → EReal := m ((c : Thread nD τ).loc main_arg1)
abbrev argW (c : Dev nD) : S128x128.Idx → EReal := m ((c : Thread nD τ).loc main_arg2)
abbrev argB (c : Dev nD) : S128.Idx → EReal := m ((c : Thread nD τ).loc main_arg3)

/-- The dense layer of the blocks any point sees is the dense layer of the launch arrays. -/
theorem dense_of_blocks (c : Dev nD) (t : Fin cfg0.N) (k : Fin 10000) (q : Fin 128) :
    k0_pay1 (F := Ideal) (iblk m c 0 t) (iblk m c 1 t) (iblk m c 2 t) (ix2 k q)
      = hiddenAt (argX m c) (argW m c) (argB m c) k q := by
  refine (Pay.pay1_apply (iblk m c 0 t) (iblk m c 1 t) (iblk m c 2 t) k q).trans ?_
  unfold hiddenAt
  refine congrArg₂ (· + ·) (Finset.sum_congr rfl fun d _ => ?_) (bias_block m c t q)
  rw [features_block m c t k d, weights_block m c t q d]

/-- After the first point the carried buffer holds the dense layer. -/
theorem carried_first_point (c : Dev nD) (t : Fin cfg0.N) (h0 : t.val % 25 = 0) (k : Fin 10000) (q : Fin 128) :
    ((outsAt0 m c t.val t.isLt).2 : Vec Ideal S10000x128 .bf16) (ix2 k q) = hiddenAt (argX m c) (argW m c) (argB m c) k q := by
  rw [outsAt0_A m c t h0]
  dsimp only
  rw [Pieces.carried_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
  exact dense_of_blocks m c t k q

/-- AFTER EVERY POINT the carried buffer holds the dense layer of the launch arrays: written at the first point, kept
    by every later one. -/
theorem carried_eq (c : Dev nD) : ∀ (n : ℕ) (hn : n < cfg0.N) (k : Fin 10000) (q : Fin 128),
    ((outsAt0 m c n hn).2 : Vec Ideal S10000x128 .bf16) (ix2 k q) = hiddenAt (argX m c) (argW m c) (argB m c) k q
  | 0, hn, k, q => carried_first_point m c ⟨0, hn⟩ (Nat.zero_mod 25) k q
  | n + 1, hn, k, q => by
    have hN : cfg0.N = 25 := N_0
    have hB : ¬(⟨n + 1, hn⟩ : Fin cfg0.N).val % 25 = 0 := by dsimp only; omega
    rw [outsAt0_B m c ⟨n + 1, hn⟩ hB]
    show ((outsAt0 m c n _).2 : Vec Ideal S10000x128 .bf16) (ix2 k q) = _
    exact carried_eq c n _ k q

/-- THE OUTPUT BLOCK after point `t`: the slab's rows against the dense layer's columns. -/
theorem out_eq (c : Dev nD) (t : Fin cfg0.N) (p : Fin 400) (q : Fin 128) :
    ((outsAt0 m c t.val t.isLt).1 : Vec Ideal S400x128 .f32) (ix2 p q)
      = ∑ k : Fin 10000, argA m c (ix2 (slabRow t p) k) * hiddenAt (argX m c) (argW m c) (argB m c) k q := by
  by_cases h0 : t.val % 25 = 0
  · rw [outsAt0_A m c t h0]
    dsimp only
    rw [Pieces.out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    refine (Pay.pay2_apply (iblk m c 3 t) (k0_pay1 (F := Ideal) (iblk m c 0 t) (iblk m c 1 t) (iblk m c 2 t)) p q).trans ?_
    refine Finset.sum_congr rfl fun k _ => ?_
    rw [slab_block m c t p k, dense_of_blocks m c t k q]
  · rw [outsAt0_B m c t h0]
    dsimp only
    rw [Pieces.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2]
    refine (Pay.pay2_apply (iblk m c 3 t) (outsAt0 m c (t.val - 1) (Nat.lt_of_le_of_lt (Nat.sub_le _ _) t.isLt)).2 p q).trans ?_
    refine Finset.sum_congr rfl fun k _ => ?_
    rw [slab_block m c t p k, carried_eq m c (t.val - 1) _ k q]

end Cert.KernelIdeal.Carried

end
-- ==== Proof.KernelFinal.lean ====
/-
  The result array after the kernel's run is `A · (x · Wᵀ + b)` of the launch arrays.

  What point t writes back is the output block after the body, and that block is rows 400·t … 400·t + 399 of the
  specification (the slab's row p is the adjacency's row 400·t + p). The 25 blocks tile the 10000 rows — row r is in
  the block of point r / 400 — so the array ends holding the specification everywhere.
-/
import proofs.«179110_g35424890258178_cont_8to1_b_1443_18_alg».proof.Proof.KernelCarried

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.GraphConv Cert.KernelIdeal.Blocks Cert.KernelIdeal.Carried

variable (m : (ℓ : Loc nD τ sig) → Buf (Elt Ideal) ℓ) (ρ : Dev nD → PrngReg)

/-- The specification at the launch arrays of core `c`. -/
abbrev spec (c : Dev nD) : S10000x128.Idx → EReal := result (argX m c) (argA m c) (argW m c) (argB m c)

/-- WHAT POINT `t` WRITES BACK is block `t` of the specification. -/
theorem flushed_eq (c : Dev nD) (t : Fin cfg0.N) :
    (dats m 0 c).flushed 4 t = ((cfg0.win 4).blk t).view.read (Elt Ideal) (spec m c) := by
  rw [Value.flushed4]
  funext j
  obtain ⟨p, q, rfl⟩ : ∃ (p : Fin 400) (q : Fin 128), j = ix2 p q := ⟨j 0, j 1, eq_ix2 j⟩
  show ((outsAt0 m c t.val t.isLt).1 : Vec Ideal S400x128 .f32) (ix2 p q) = spec m c (((cfg0.win 4).blk t).view.emb (ix2 p q))
  rw [out_block_emb t p q, out_eq m c t p q]
  rfl

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every index of the result array is in some point's block: row r in the block of point r / 400. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  refine ⟨⟨(i 0).val / 400, by rw [hN]; omega⟩, flush0_4 _, ?_⟩
  rw [mem_blk]
  obtain ⟨-, -, -, -, -, -, -, -, e0, e1⟩ := idx_facts (⟨(i 0).val / 400, by rw [hN]; omega⟩ : Fin cfg0.N)
  intro a
  match a with
  | ⟨0, _⟩ =>
    show win0_4.index _ (0 : Fin 2) * 400 ≤ (i 0).val ∧ (i 0).val < win0_4.index _ (0 : Fin 2) * 400 + 400
    rw [e0]; dsimp only; omega
  | ⟨1, _⟩ =>
    show win0_4.index _ (1 : Fin 2) * 128 ≤ (i 1).val ∧ (i 1).val < win0_4.index _ (1 : Fin 2) * 128 + 128
    rw [e1]; omega

/-- THE RESULT ARRAY after the run is the specification. -/
theorem final (c : Dev nD) : (dats m 0 c).arrAt 4 cfg0.N = spec m c :=
  (dats m 0 c).arrAt_eq_of_cover 4 (spec m c) (fun t _ => flushed_eq m c t) covered

/-- The kernel's run, read: the result array at the specification of the launch arrays, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefIsSpec.lean ====
/-
  The reference's result term is `GraphConv.result` of its arguments.

  Reading the reference's operations at an index (r, c), outermost first: the quotient by the splat of 1.0 is the
  dividend; the outer matrix product is the sum over k of A (r, k) times the inner array at (k, c); the inner array is
  the sum of the matrix product of x with the transpose of W — the sum over d of x (k, d) times W (c, d) — and the bias
  broadcast along the rows, b c.
-/
import proofs.«179110_g35424890258178_cont_8to1_b_1443_18_alg».proof.Proof.Gen.ReferenceIdeal.Read
import proofs.«179110_g35424890258178_cont_8to1_b_1443_18_alg».proof.Proof.Spec

noncomputable section

namespace Cert.ReferenceIdeal.RefValue

open Cert.ReferenceIdeal Cert.ReferenceIdeal.Read Idealize.ShloMosaic Idealize.ShloMosaic.ValueIdx Cert.GraphConv

/-- The inner array at (k, c): the dense layer's entry. -/
theorem inner_apply (x0 : S10000x128.Idx → EReal) (x2 : S128x128.Idx → EReal) (x3 : S128.Idx → EReal)
    (k : Fin 10000) (c : Fin 128) :
    val_main_v4 (F := Ideal) x0 x2 x3 (ix2 k c) = hiddenAt x0 x2 x3 k c := by
  rw [val_main_v4_apply, val_main_v1_apply, val_main_v3_apply, val_main_v2_apply]
  unfold hiddenAt
  show (∑ d : Fin 128, _) + _ = _
  refine congrArg₂ (· + ·) (Finset.sum_congr rfl fun d _ => ?_)
    (congrArg x3 (funext fun a => Fin.ext (by match a with | ⟨0, _⟩ => rfl)))
  rw [val_main_v0_apply]
  have el : lidx_main_v1 (ix2 k c) d = ix2 k d := funext fun a => Fin.ext (by
    match a with
    | ⟨0, _⟩ => rfl
    | ⟨1, _⟩ => rfl)
  have er : idx_main_v0 (ridx_main_v1 (ix2 k c) d) = ix2 c d := funext fun a => Fin.ext (by
    match a with
    | ⟨0, _⟩ => rfl
    | ⟨1, _⟩ => rfl)
  rw [el, er]

/-- The reference's stage for its result is the specification. -/
theorem reference_eq (x0 : S10000x128.Idx → EReal) (x1 : S10000x10000.Idx → EReal) (x2 : S128x128.Idx → EReal)
    (x3 : S128.Idx → EReal) :
    val_main_v7 (F := Ideal) x0 x1 x2 x3 = result x0 x1 x2 x3 := by
  funext i
  obtain ⟨r, c, rfl⟩ : ∃ (r : Fin 10000) (c : Fin 128), i = ix2 r c := ⟨i 0, i 1, eq_ix2 i⟩
  rw [val_main_v7_apply, val_main_v5_apply, val_main_v6_apply, val_main_cst_apply, result_ix2]
  rw [Ideal.hostDivf_def, Ideal.ofBits_def, one_f32, div_one]
  refine Finset.sum_congr rfl fun k _ => ?_
  have el : lidx_main_v5 (ix2 r c) k = ix2 r k := funext fun a => Fin.ext (by
    match a with
    | ⟨0, _⟩ => rfl
    | ⟨1, _⟩ => rfl)
  have er : ridx_main_v5 (ix2 r c) k = ix2 k c := funext fun a => Fin.ext (by
    match a with
    | ⟨0, _⟩ => rfl
    | ⟨1, _⟩ => rfl)
  rw [el, er, inner_apply]

end Cert.ReferenceIdeal.RefValue

end
-- ==== Proof.lean ====
/-
  The graph-convolution kernel against its reference: `A · (x · Wᵀ + b) / 1`.

  Both programs compute, over the extended reals, the array `GraphConv.result x A W b`: entry (r, c) is
  `∑ k, A (r, k) · ((∑ d, x (k, d) · W (c, d)) + b c)` (Proof/Spec.lean).

  The kernel walks 25 slabs of 400 rows of `A`. At the first slab it computes the dense layer `x · Wᵀ + b` once and
  keeps it in a buffer carried across the grid; at every slab it multiplies the slab with that buffer and writes the
  400 rows of the result back. The carried buffer holds the dense layer after every grid point (induction on the
  point: Proof/KernelCarried.lean), each written block is the matching rows of the specification, and the blocks tile
  the array (Proof/KernelFinal.lean). Its changes of float format are the identity on the extended reals and its two
  matrix products into zero accumulators are plain sums (Proof/KernelPay.lean).

  The reference multiplies `x` with the transpose of `W`, adds the bias broadcast along the rows, multiplies by `A` and
  divides by the constant 1; a quotient by 1 is the dividend on every extended real, so its result is the same array
  (Proof/RefIsSpec.lean). No step uses that the inputs are finite: both sides are the same sums of the same products,
  term by term.

  The three frames are the generated ones (the reference's is its run with the result dropped); the idealization
  rewrote nothing, so `preserves` is `True`.
-/
import proofs.«179110_g35424890258178_cont_8to1_b_1443_18_alg».proof.Defs
import proofs.«179110_g35424890258178_cont_8to1_b_1443_18_alg».proof.Proof.Gen.Kernel
import proofs.«179110_g35424890258178_cont_8to1_b_1443_18_alg».proof.Proof.Gen.Kernel.Skeleton
import proofs.«179110_g35424890258178_cont_8to1_b_1443_18_alg».proof.Proof.Gen.Kernel.Launch
import proofs.«179110_g35424890258178_cont_8to1_b_1443_18_alg».proof.Proof.Gen.Kernel.Points
import proofs.«179110_g35424890258178_cont_8to1_b_1443_18_alg».proof.Proof.Gen.Kernel.Frame
import proofs.«179110_g35424890258178_cont_8to1_b_1443_18_alg».proof.Proof.Gen.KernelIdeal
import proofs.«179110_g35424890258178_cont_8to1_b_1443_18_alg».proof.Proof.Gen.KernelIdeal.Skeleton
import proofs.«179110_g35424890258178_cont_8to1_b_1443_18_alg».proof.Proof.Gen.KernelIdeal.Launch
import proofs.«179110_g35424890258178_cont_8to1_b_1443_18_alg».proof.Proof.Gen.KernelIdeal.Points
import proofs.«179110_g35424890258178_cont_8to1_b_1443_18_alg».proof.Proof.Gen.KernelIdeal.Frame
import proofs.«179110_g35424890258178_cont_8to1_b_1443_18_alg».proof.Proof.Gen.ReferenceIdeal
import proofs.«179110_g35424890258178_cont_8to1_b_1443_18_alg».proof.Proof.Gen.Pre_finite_inputs
import proofs.«179110_g35424890258178_cont_8to1_b_1443_18_alg».proof.Proof.Gen.KernelIdeal.Value
import proofs.«179110_g35424890258178_cont_8to1_b_1443_18_alg».proof.Proof.Gen.ReferenceIdeal.Run
import proofs.«179110_g35424890258178_cont_8to1_b_1443_18_alg».proof.Proof.Gen.ReferenceIdeal.Read
import proofs.«179110_g35424890258178_cont_8to1_b_1443_18_alg».proof.Proof.KernelFinal
import proofs.«179110_g35424890258178_cont_8to1_b_1443_18_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments the kernel's result array ends at the specification of its
    launch arrays and the reference's at the specification of its own: the same array. -/
theorem algebraic : Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
